-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S16x4096 .f32) (main_arg4 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S16384x4096 : Shape := ⟨2, ![16384, 4096]⟩
abbrev S1x4096 : Shape := ⟨2, ![1, 4096]⟩
abbrev S256x4096 : Shape := ⟨2, ![256, 4096]⟩
abbrev S1024x4096 : Shape := ⟨2, ![1024, 4096]⟩
abbrev S1024x16 : Shape := ⟨2, ![1024, 16]⟩
abbrev S1x1024 : Shape := ⟨2, ![1, 1024]⟩
abbrev S256x1024 : Shape := ⟨2, ![256, 1024]⟩
abbrev S256x16 : Shape := ⟨2, ![256, 16]⟩

abbrev nBuf : Space → Nat
  | .hbm => 13
  | .vmem => 11
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S16384x4096, .f32⟩
  | .hbm, ⟨6, _⟩ => ⟨S16384x4096, .bf16⟩
  | .hbm, ⟨7, _⟩ => ⟨S4096x4096, .bf16⟩
  | .hbm, ⟨8, _⟩ => ⟨S16x4096, .bf16⟩
  | .hbm, ⟨9, _⟩ => ⟨S4096x16, .bf16⟩
  | .hbm, ⟨10, _⟩ => ⟨S1x4096, .f32⟩
  | .hbm, ⟨11, _⟩ => ⟨S16384x4096, .f32⟩
  | .hbm, ⟨12, _⟩ => ⟨S4x4096x4096, .f32⟩
  | .local _ .vmem, ⟨0, _⟩ => ⟨S256x4096, .bf16⟩
  | .local _ .vmem, ⟨1, _⟩ => ⟨S256x4096, .bf16⟩
  | .local _ .vmem, ⟨2, _⟩ => ⟨S1024x4096, .bf16⟩
  | .local _ .vmem, ⟨3, _⟩ => ⟨S1024x4096, .bf16⟩
  | .local _ .vmem, ⟨4, _⟩ => ⟨S16x4096, .bf16⟩
  | .local _ .vmem, ⟨5, _⟩ => ⟨S1024x16, .bf16⟩
  | .local _ .vmem, ⟨6, _⟩ => ⟨S1024x16, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S16x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x4096x4096_S16384x4096 : S4x4096x4096.ShapeCasts S16384x4096
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S16384x4096_S4x4096x4096 : S16384x4096.ShapeCasts S4x4096x4096
  dot_S256x4096_S1024x4096_S256x1024_1_1_0_0_n_n_wf : DotDims.WF S256x4096 S1024x4096 S256x1024 [1] [1] [0] [0] [] []
  dot_S256x4096_S16x4096_S256x16_1_1_0_0_n_n_wf : DotDims.WF S256x4096 S16x4096 S256x16 [1] [1] [0] [0] [] []
  dot_S256x16_S1024x16_S256x1024_1_1_0_0_n_n_wf : DotDims.WF S256x16 S1024x16 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .bf16 = 32 ∨ (Rect.block (s := S16384x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .bf16 = 32 ∨ (Rect.block (s := S16x4096) S16x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .bf16 = 32 ∨ (Rect.block (s := S4096x16) S1024x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x4096.size a
  hwx0_5 : ∀ i : grid0.Coords, EltTy.bits .f32 = 32 ∨ (Rect.block (s := S16384x4096) S256x1024.size (cc0_transform_5 i) (hinb0_5 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf
def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S1024x16_S256x1024_1_1_0_0_n_n : DotDims S256x16 S1024x16 S256x1024 where
  lhsContracting := [1]
  rhsContracting := [1]
  lhsNonContracting := [0]
  rhsNonContracting := [0]
  lhsBatch := []
  rhsBatch := []
  wf := dot_S256x16_S1024x16_S256x1024_1_1_0_0_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S16x4096_S4x4096x16_2_1_01_0_n_n_wf : DotDims.WF S4x4096x4096 S16x4096 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.Spec.lean ====
/-
  The function both programs compute, stated once, free of either program.

  A dense layer with a low-rank correction. With `x` a batch of rows, `W` the weight matrix, `β` the
  bias, `A` (rank × in) and `B` (out × rank) the two thin factors and `σ` the scaling constant (the
  f32 word of 2.0 read as an extended real), the entry of the result at row `p` and column `o` is

      (Σ_k x[p,k] · W[o,k]  +  β[o])  +  σ · Σ_r (Σ_k x[p,k] · A[r,k]) · B[o,r].

  It is stated twice: over the rows flattened to one axis (`rowcol`, what the blocked computation
  produces) and over the rows as (batch, position) pairs (`entry`, what the einsum form produces), and
  `rowcol_eq_entry` says that the first, fed the flattened rows and the bias as a one-row matrix, is
  the second. No algebraic law of the extended reals is needed: the two sides are the same
  expression, term for term.
-/
import Idealize.ShloMosaic.PureOps.Ideal
import Idealize.ShloMosaic.Lib.ValueIdx

noncomputable section

open scoped BigOperators

namespace Cert.Lora

open Idealize.ShloMosaic Idealize.ShloMosaic.ValueIdx

/-- The scaling constant: the f32 word of 2.0, as the extended real it denotes. It is the same word in
    both programs, so it is never evaluated. -/
abbrev scale : EReal := Ideal.ofBits .f32 0x40000000#32

/-- Entry (p, o) of the layer over flattened rows: `X` is 16384 × 4096, the bias a 1 × 4096 matrix. -/
def rowcol (X : FVec Ideal ⟨2, ![16384, 4096]⟩ .f32) (Wm : FVec Ideal ⟨2, ![4096, 4096]⟩ .f32)
    (Am : FVec Ideal ⟨2, ![16, 4096]⟩ .f32) (Bm : FVec Ideal ⟨2, ![4096, 16]⟩ .f32)
    (bias : FVec Ideal ⟨2, ![1, 4096]⟩ .f32) (p : Fin 16384) (o : Fin 4096) : EReal :=
  (∑ k : Fin 4096, X (ix2 p k) * Wm (ix2 o k) + bias (ix2 (0 : Fin 1) o))
    + scale * ∑ r : Fin 16, (∑ k : Fin 4096, X (ix2 p k) * Am (ix2 r k)) * Bm (ix2 o r)

/-- The layer over flattened rows as an array. -/
def dense2 (X : FVec Ideal ⟨2, ![16384, 4096]⟩ .f32) (Wm : FVec Ideal ⟨2, ![4096, 4096]⟩ .f32)
    (Am : FVec Ideal ⟨2, ![16, 4096]⟩ .f32) (Bm : FVec Ideal ⟨2, ![4096, 16]⟩ .f32)
    (bias : FVec Ideal ⟨2, ![1, 4096]⟩ .f32) : FVec Ideal ⟨2, ![16384, 4096]⟩ .f32 :=
  fun i => rowcol X Wm Am Bm bias (i 0) (i 1)

/-- Entry (b, s, o) of the layer over rows indexed by batch `b` and position `s`: the bias a vector. -/
def entry (x : FVec Ideal ⟨3, ![4, 4096, 4096]⟩ .f32) (Wm : FVec Ideal ⟨2, ![4096, 4096]⟩ .f32)
    (β : FVec Ideal ⟨1, ![4096]⟩ .f32) (Am : FVec Ideal ⟨2, ![16, 4096]⟩ .f32)
    (Bm : FVec Ideal ⟨2, ![4096, 16]⟩ .f32) (b : Fin 4) (s : Fin 4096) (o : Fin 4096) : EReal :=
  (∑ k : Fin 4096, x (ix3 b s k) * Wm (ix2 o k) + β (ix1 o))
    + scale * ∑ r : Fin 16, (∑ k : Fin 4096, x (ix3 b s k) * Am (ix2 r k)) * Bm (ix2 o r)

/-- The layer over (batch, position) rows as an array. -/
def dense3 (x : FVec Ideal ⟨3, ![4, 4096, 4096]⟩ .f32) (Wm : FVec Ideal ⟨2, ![4096, 4096]⟩ .f32)
    (β : FVec Ideal ⟨1, ![4096]⟩ .f32) (Am : FVec Ideal ⟨2, ![16, 4096]⟩ .f32)
    (Bm : FVec Ideal ⟨2, ![4096, 16]⟩ .f32) : FVec Ideal ⟨3, ![4, 4096, 4096]⟩ .f32 :=
  fun i => entry x Wm β Am Bm (i 0) (i 1) (i 2)

/-- If row `p` of `X` is row (b, s) of `x` and the one-row matrix `bias` is the vector `β`, the entry over
    flattened rows at (p, o) is the entry over (batch, position) rows at (b, s, o). -/
theorem rowcol_eq_entry (X : FVec Ideal ⟨2, ![16384, 4096]⟩ .f32) (x : FVec Ideal ⟨3, ![4, 4096, 4096]⟩ .f32)
    (Wm : FVec Ideal ⟨2, ![4096, 4096]⟩ .f32) (β : FVec Ideal ⟨1, ![4096]⟩ .f32)
    (Am : FVec Ideal ⟨2, ![16, 4096]⟩ .f32) (Bm : FVec Ideal ⟨2, ![4096, 16]⟩ .f32)
    (bias : FVec Ideal ⟨2, ![1, 4096]⟩ .f32) (p : Fin 16384) (b : Fin 4) (s : Fin 4096) (o : Fin 4096)
    (hX : ∀ k : Fin 4096, X (ix2 p k) = x (ix3 b s k)) (hβ : bias (ix2 (0 : Fin 1) o) = β (ix1 o)) :
    rowcol X Wm Am Bm bias p o = entry x Wm β Am Bm b s o := by
  unfold rowcol entry
  simp only [hX, hβ]

end Cert.Lora

end
-- ==== Proof.LibRowsDot.lean ====
/-
  A matrix product of two rank-2 operands that contracts the LAST axis of both (`x · yᵀ`), read at an entry.

  For dimension numbers `d` over operands of shapes [M, K] and [N, K] and a result of shape [M, N] whose one
  contracted axis is the second of each operand — given as the four coordinate facts of `d`'s operand index
  maps, which for a literal record are decided or read off `DotDims.lhsIdx_val_of_single` — a `tpu.matmul` into
  the zero accumulator at the ideal instance is, at entry (p, q),

      Σ_{k < K} lhs[p, k] · rhs[q, k].

  The contraction's index type is re-indexed to `Fin K` through `ValueIdx.contrEquiv1`.
-/
import Idealize.ShloMosaic.PureOps.Ideal.Laws
import Idealize.ShloMosaic.Lib.ValueIdx

noncomputable section

open scoped BigOperators

namespace Cert.Lora

open Idealize.ShloMosaic Idealize.ShloMosaic.ValueIdx

/-- `x · yᵀ` into the zero accumulator, at entry (p, q): the sum over the shared last axis of the products of row
    `p` of the left operand and row `q` of the right. The hypotheses say where the record's operand index maps
    read: the left operand at (row of the entry, contraction position), the right at (column of the entry,
    contraction position). -/
theorem rows_dot_zero {M N K : Nat} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lora

end
-- ==== Proof.Payload.lean ====
/-
  What one grid step computes, entry by entry.

  A step holds a block of 256 rows of `x`, a block of 1024 rows of `W`, all of `A`, the matching 1024 rows of `B`
  and the matching 1024 bias entries (a 1 × 1024 row). It forms three products, each contracting the last axis
  of both operands: the rows of `x` with the rows of `W` (256 × 1024), the rows of `x` with the rows of `A`
  (256 × 16), and that thin product with the rows of `B` (256 × 1024); it adds the bias row, broadcast down the
  256 rows, to the first, scales the third by the constant, and adds. Format changes are the identity on the
  extended reals. So entry (p, q) of the stored block is

      (Σ_k x[p,k] · W[q,k] + bias[0,q]) + σ · Σ_r (Σ_k x[p,k] · A[r,k]) · B[q,r].
-/
import proofs.«170054_j1108101562874_2_alg».proof.Proof.Gen.KernelIdeal.Skeleton
import proofs.«170054_j1108101562874_2_alg».proof.Proof.Spec
import proofs.«170054_j1108101562874_2_alg».proof.Proof.LibRowsDot
import Idealize.ShloMosaic.Lib.Pipeline.Value

noncomputable section

open scoped BigOperators

namespace Cert.KernelIdeal.Body

open Cert.KernelIdeal Cert.KernelIdeal.Gen
open Idealize.ShloMosaic Idealize.ShloMosaic.ValueIdx Cert.Lora

/-! ## Where the three products read their operands -/

theorem base_l0 (j : S256x1024.Idx) (c : dot_S256x4096_S1024x4096_S256x1024_1_1_0_0_n_n.contr.Idx) : (dot_S256x4096_S1024x4096_S256x1024_1_1_0_0_n_n.lhsIdx j c 0).val = (j 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
theorem base_l1 (j : S256x1024.Idx) (c : dot_S256x4096_S1024x4096_S256x1024_1_1_0_0_n_n.contr.Idx) : (dot_S256x4096_S1024x4096_S256x1024_1_1_0_0_n_n.lhsIdx j c 1).val = (c ⟨0, by decide⟩).val :=
  dot_S256x4096_S1024x4096_S256x1024_1_1_0_0_n_n.lhsIdx_val_of_single rfl j c
theorem base_r0 (j : S256x1024.Idx) (c : dot_S256x4096_S1024x4096_S256x1024_1_1_0_0_n_n.contr.Idx) : (dot_S256x4096_S1024x4096_S256x1024_1_1_0_0_n_n.rhsIdx j c 0).val = (j 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
theorem base_r1 (j : S256x1024.Idx) (c : dot_S256x4096_S1024x4096_S256x1024_1_1_0_0_n_n.contr.Idx) : (dot_S256x4096_S1024x4096_S256x1024_1_1_0_0_n_n.rhsIdx j c 1).val = (c ⟨0, by decide⟩).val :=
  dot_S256x4096_S1024x4096_S256x1024_1_1_0_0_n_n.rhsIdx_val_of_single rfl j c

theorem thin_l0 (j : S256x16.Idx) (c : dot_S256x4096_S16x4096_S256x16_1_1_0_0_n_n.contr.Idx) : (dot_S256x4096_S16x4096_S256x16_1_1_0_0_n_n.lhsIdx j c 0).val = (j 0).val := by
  unfold DotDims.lhsIdx
  rw [dif_neg (show ¬(0 : Fin S256x4096.rank) ∈ dot_S256x4096_S16x4096_S256x16_1_1_0_0_n_n.lhsBatch by decide), dif_pos (show (0 : Fin S256x4096.rank) ∈ dot_S256x4096_S16x4096_S256x16_1_1_0_0_n_n.lhsNonContracting by decide)]
  rfl
theorem thin_l1 (j : S256x16.Idx) (c : dot_S256x4096_S16x4096_S256x16_1_1_0_0_n_n.contr.Idx) : (dot_S256x4096_S16x4096_S256x16_1_1_0_0_n_n.lhsIdx j c 1).val = (c ⟨0, by decide⟩).val :=
  dot_S256x4096_S16x4096_S256x16_1_1_0_0_n_n.lhsIdx_val_of_single rfl j c
theorem thin_r0 (j : S256x16.Idx) (c : dot_S256x4096_S16x4096_S256x16_1_1_0_0_n_n.contr.Idx) : (dot_S256x4096_S16x4096_S256x16_1_1_0_0_n_n.rhsIdx j c 0).val = (j 1).val := by
  unfold DotDims.rhsIdx
  rw [dif_neg (show ¬(0 : Fin S16x4096.rank) ∈ dot_S256x4096_S16x4096_S256x16_1_1_0_0_n_n.rhsBatch by decide), dif_pos (show (0 : Fin S16x4096.rank) ∈ dot_S256x4096_S16x4096_S256x16_1_1_0_0_n_n.rhsNonContracting by decide)]
  rfl
theorem thin_r1 (j : S256x16.Idx) (c : dot_S256x4096_S16x4096_S256x16_1_1_0_0_n_n.contr.Idx) : (dot_S256x4096_S16x4096_S256x16_1_1_0_0_n_n.rhsIdx j c 1).val = (c ⟨0, by decide⟩).val :=
  dot_S256x4096_S16x4096_S256x16_1_1_0_0_n_n.rhsIdx_val_of_single rfl j c

theorem delta_l0 (j : S256x1024.Idx) (c : dot_S256x16_S1024x16_S256x1024_1_1_0_0_n_n.contr.Idx) : (dot_S256x16_S1024x16_S256x1024_1_1_0_0_n_n.lhsIdx j c 0).val = (j 0).val := by
  unfold DotDims.lhsIdx
  rw [dif_neg (show ¬(0 : Fin S256x16.rank) ∈ dot_S256x16_S1024x16_S256x1024_1_1_0_0_n_n.lhsBatch by decide), dif_pos (show (0 : Fin S256x16.rank) ∈ dot_S256x16_S1024x16_S256x1024_1_1_0_0_n_n.lhsNonContracting by decide)]
  rfl
theorem delta_l1 (j : S256x1024.Idx) (c : dot_S256x16_S1024x16_S256x1024_1_1_0_0_n_n.contr.Idx) : (dot_S256x16_S1024x16_S256x1024_1_1_0_0_n_n.lhsIdx j c 1).val = (c ⟨0, by decide⟩).val :=
  dot_S256x16_S1024x16_S256x1024_1_1_0_0_n_n.lhsIdx_val_of_single rfl j c
theorem delta_r0 (j : S256x1024.Idx) (c : dot_S256x16_S1024x16_S256x1024_1_1_0_0_n_n.contr.Idx) : (dot_S256x16_S1024x16_S256x1024_1_1_0_0_n_n.rhsIdx j c 0).val = (j 1).val := by
  unfold DotDims.rhsIdx
  rw [dif_neg (show ¬(0 : Fin S1024x16.rank) ∈ dot_S256x16_S1024x16_S256x1024_1_1_0_0_n_n.rhsBatch by decide), dif_pos (show (0 : Fin S1024x16.rank) ∈ dot_S256x16_S1024x16_S256x1024_1_1_0_0_n_n.rhsNonContracting by decide)]
  rfl
theorem delta_r1 (j : S256x1024.Idx) (c : dot_S256x16_S1024x16_S256x1024_1_1_0_0_n_n.contr.Idx) : (dot_S256x16_S1024x16_S256x1024_1_1_0_0_n_n.rhsIdx j c 1).val = (c ⟨0, by decide⟩).val :=
  dot_S256x16_S1024x16_S256x1024_1_1_0_0_n_n.rhsIdx_val_of_single rfl j c

/-! ## The three products and the bias row at an entry -/

/-- The rows of the `x` block against the rows of the `W` block. -/
theorem base_apply (x0 : FVec Ideal S256x4096 .bf16) (x1 : FVec Ideal S1024x4096 .bf16) (p : Fin 256) (q : Fin 1024) :
    matmul dot_S256x4096_S1024x4096_S256x1024_1_1_0_0_n_n none x0 x1 (constant (F := Ideal) S256x1024 .f32 0x00000000#32) (ix2 p q)
      = ∑ k : Fin 4096, x0 (ix2 p k) * x1 (ix2 q k) :=
  rows_dot_zero dot_S256x4096_S1024x4096_S256x1024_1_1_0_0_n_n none rfl rfl base_l0 base_l1 base_r0 base_r1 x0 x1 p q

/-- The rows of the `x` block against the rows of `A`. -/
theorem thin_apply (x0 : FVec Ideal S256x4096 .bf16) (x2 : FVec Ideal S16x4096 .bf16) (p : Fin 256) (r : Fin 16) :
    matmul dot_S256x4096_S16x4096_S256x16_1_1_0_0_n_n none x0 x2 (constant (F := Ideal) S256x16 .f32 0x00000000#32) (ix2 p r)
      = ∑ k : Fin 4096, x0 (ix2 p k) * x2 (ix2 r k) :=
  rows_dot_zero dot_S256x4096_S16x4096_S256x16_1_1_0_0_n_n none rfl rfl thin_l0 thin_l1 thin_r0 thin_r1 x0 x2 p r

/-- A 256 × 16 matrix against the rows of the `B` block. -/
theorem delta_apply (y : FVec Ideal S256x16 .bf16) (x3 : FVec Ideal S1024x16 .bf16) (p : Fin 256) (q : Fin 1024) :
    matmul dot_S256x16_S1024x16_S256x1024_1_1_0_0_n_n none y x3 (constant (F := Ideal) S256x1024 .f32 0x00000000#32) (ix2 p q)
      = ∑ r : Fin 16, y (ix2 p r) * x3 (ix2 q r) :=
  rows_dot_zero dot_S256x16_S1024x16_S256x1024_1_1_0_0_n_n none rfl rfl delta_l0 delta_l1 delta_r0 delta_r1 y x3 p q

/-- The bias row broadcast down the rows: entry (p, q) is entry (0, q) of the row. -/
theorem bias_row_apply (x4 : FVec Ideal S1x1024 .f32) (p : Fin 256) (q : Fin 1024) :
    broadcastTo S256x1024 x4 broadcasts_S1x1024_S256x1024 (ix2 p q) = x4 (ix2 (0 : Fin 1) q) :=
  broadcastTo_apply x4 broadcasts_S1x1024_S256x1024 (ix2 p q) (ix2 (0 : Fin 1) q) (fun a => by
    match a with
    | ⟨0, _⟩ => show (0 : Nat) = if (1 : Nat) = 1 then 0 else p.val; rw [if_pos rfl]
    | ⟨1, _⟩ => show q.val = if (1024 : Nat) = 1 then 0 else q.val; rw [if_neg (by decide)])

/-! ## The stored block at an entry -/

/-- Entry (p, q) of what a step stores, from the blocks it loaded. -/
theorem stored_apply (x0 : FVec Ideal S256x4096 .bf16) (x1 : FVec Ideal S1024x4096 .bf16) (x2 : FVec Ideal S16x4096 .bf16)
    (x3 : FVec Ideal S1024x16 .bf16) (x4 : FVec Ideal S1x1024 .f32) (p : Fin 256) (q : Fin 1024) :
    k0_pay1 (F := Ideal) x0 x1 x2 x3 x4 (ix2 p q)
      = (∑ k : Fin 4096, x0 (ix2 p k) * x1 (ix2 q k) + x4 (ix2 (0 : Fin 1) q))
        + scale * ∑ r : Fin 16, (∑ k : Fin 4096, x0 (ix2 p k) * x2 (ix2 r k)) * x3 (ix2 q r) := by
  unfold k0_pay1
  simp only [shapeCast_self]
  rw [addf_apply, addf_apply, mulf_apply, broadcast_apply, base_apply, bias_row_apply, delta_apply]
  simp only [truncf_apply, thin_apply]
  rfl

end Cert.KernelIdeal.Body

end
-- ==== Proof.Blocks.lean ====
/-
  From what each grid step stores to the whole result array.

  The grid has 4 × 64 steps. Step `t` works on row block `i(t)` (256 rows, 64 of them) and column block `j(t)`
  (1024 columns, 4 of them). It reads rows `i(t)·256 …` of the staged rows, rows `j(t)·1024 …` of the weights, all of
  the first thin factor, rows `j(t)·1024 …` of the second, and columns `j(t)·1024 …` of the bias row, and writes
  block (i(t), j(t)) of the result. Since an entry of the stored block depends only on its own row of the row
  block and its own row of the weight and second-factor blocks, the stored block is block (i(t), j(t)) of ONE
  array-wide function (`Cert.Lora.dense2` of the staged arrays). Every (row block, column block) pair is some
  step's, so the blocks cover the result and the result array ends equal to that function.
-/
import proofs.«170054_j1108101562874_2_alg».proof.Proof.Gen.KernelIdeal.Frame
import proofs.«170054_j1108101562874_2_alg».proof.Proof.Payload
import Idealize.ShloMosaic.Lib.Pipeline.Value

set_option maxRecDepth 16384

noncomputable section

open scoped BigOperators

namespace Cert.KernelIdeal.Blocks

open Cert.KernelIdeal Cert.KernelIdeal.Gen Cert.KernelIdeal.Body
open Idealize.ShloMosaic Idealize.ShloMosaic.TcCoe Idealize.SL.Sem Idealize.ShloMosaic.ValueIdx Cert.Lora
open Idealize.ShloMosaic.Pipeline (Dat)

variable (m : (ℓ : Loc nD τ sig) → Buf (Elt Ideal) ℓ)

/-! ## The block index maps, decided over the grid -/

theorem offsets_zero : (![0, 0] : Fin 2 → Nat) = fun _ => 0 := funext fun a => by fin_cases a <;> rfl

/-- How each input's block index follows the output's: the rows move with the output's row block, the weights,
    the second factor and the bias with its column block, the first factor stays; and the output's block indices
    stay inside 64 × 4. -/
theorem block_indices : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = 0 ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 63 ∧ win0_5.index t (1 : Fin 2) ≤ 3 :=
  (by decide +kernel : ∀ t : Fin grid0.N, _)

theorem point_lt (q0 : Fin 64) (q1 : Fin 4) : q1.val * 64 + q0.val < grid0.N := by
  rw [N_0]; have := q0.isLt; have := q1.isLt; omega

/-- Row block `q0`, column block `q1` is the block of step `q1 · 64 + q0` (the column block is the outer grid axis). -/
theorem point_of : ∀ (q0 : Fin 64) (q1 : Fin 4),
    win0_5.index (⟨q1.val * 64 + q0.val, point_lt q0 q1⟩ : Fin grid0.N) = ![q0.val, q1.val] := by
  decide +kernel

/-! ## Each input block, read where the output block says -/

/-- Row `p` of the row block at step `t` is row `i(t)·256 + p` of the staged rows. -/
theorem rows_block (c : Dev nD) (t : Fin cfg0.N) (p : Fin 256) (P : Fin 16384)
    (hP : P.val = win0_5.index t (0 : Fin 2) * 256 + p.val) (k : Fin 4096) :
    iblk m c 0 t (ix2 p k) = (V m c main_v1 : FVec Ideal S16384x4096 .bf16) (ix2 P k) := by
  show V m c main_v1 (((cfg0.win 0).blk t).view.emb (ix2 p k)) = V m c main_v1 (ix2 P k)
  obtain ⟨e0, e1, -⟩ := block_indices t
  refine congrArg (V m c main_v1) (funext fun a => Fin.ext ?_)
  match a with
  | ⟨0, _⟩ => show win0_0.index t (0 : Fin 2) * 256 + 1 * p.val = P.val; rw [e0, hP]; omega
  | ⟨1, _⟩ => show win0_0.index t (1 : Fin 2) * 4096 + 1 * k.val = k.val; rw [e1]; omega

/-- Row `q` of the weight block at step `t` is row `j(t)·1024 + q` of the weights. -/
theorem weights_block (c : Dev nD) (t : Fin cfg0.N) (q : Fin 1024) (Q : Fin 4096)
    (hQ : Q.val = win0_5.index t (1 : Fin 2) * 1024 + q.val) (k : Fin 4096) :
    iblk m c 1 t (ix2 q k) = (V m c main_v2 : FVec Ideal S4096x4096 .bf16) (ix2 Q k) := by
  show V m c main_v2 (((cfg0.win 1).blk t).view.emb (ix2 q k)) = V m c main_v2 (ix2 Q k)
  obtain ⟨-, -, e0, e1, -⟩ := block_indices t
  refine congrArg (V m c main_v2) (funext fun a => Fin.ext ?_)
  match a with
  | ⟨0, _⟩ => show win0_1.index t (0 : Fin 2) * 1024 + 1 * q.val = Q.val; rw [e0, hQ]; omega
  | ⟨1, _⟩ => show win0_1.index t (1 : Fin 2) * 4096 + 1 * k.val = k.val; rw [e1]; omega

/-- The first thin factor's block is the whole factor at every step. -/
theorem down_block (c : Dev nD) (t : Fin cfg0.N) (r : Fin 16) (k : Fin 4096) :
    iblk m c 2 t (ix2 r k) = (V m c main_v3 : FVec Ideal S16x4096 .bf16) (ix2 r k) := by
  show V m c main_v3 (((cfg0.win 2).blk t).view.emb (ix2 r k)) = V m c main_v3 (ix2 r k)
  obtain ⟨-, -, -, -, e0, e1, -⟩ := block_indices t
  refine congrArg (V m c main_v3) (funext fun a => Fin.ext ?_)
  match a with
  | ⟨0, _⟩ => show win0_2.index t (0 : Fin 2) * 16 + 1 * r.val = r.val; rw [e0]; omega
  | ⟨1, _⟩ => show win0_2.index t (1 : Fin 2) * 4096 + 1 * k.val = k.val; rw [e1]; omega

/-- Row `q` of the second thin factor's block at step `t` is its row `j(t)·1024 + q`. -/
theorem up_block (c : Dev nD) (t : Fin cfg0.N) (q : Fin 1024) (Q : Fin 4096)
    (hQ : Q.val = win0_5.index t (1 : Fin 2) * 1024 + q.val) (r : Fin 16) :
    iblk m c 3 t (ix2 q r) = (V m c main_v4 : FVec Ideal S4096x16 .bf16) (ix2 Q r) := by
  show V m c main_v4 (((cfg0.win 3).blk t).view.emb (ix2 q r)) = V m c main_v4 (ix2 Q r)
  obtain ⟨-, -, -, -, -, -, e0, e1, -⟩ := block_indices t
  refine congrArg (V m c main_v4) (funext fun a => Fin.ext ?_)
  match a with
  | ⟨0, _⟩ => show win0_3.index t (0 : Fin 2) * 1024 + 1 * q.val = Q.val; rw [e0, hQ]; omega
  | ⟨1, _⟩ => show win0_3.index t (1 : Fin 2) * 16 + 1 * r.val = r.val; rw [e1]; omega

/-- Column `q` of the bias block at step `t` is column `j(t)·1024 + q` of the bias row. -/
theorem bias_block (c : Dev nD) (t : Fin cfg0.N) (q : Fin 1024) (Q : Fin 4096)
    (hQ : Q.val = win0_5.index t (1 : Fin 2) * 1024 + q.val) :
    iblk m c 4 t (ix2 (0 : Fin 1) q) = (V m c main_v5 : FVec Ideal S1x4096 .f32) (ix2 (0 : Fin 1) Q) := by
  show V m c main_v5 (((cfg0.win 4).blk t).view.emb (ix2 (0 : Fin 1) q)) = V m c main_v5 (ix2 (0 : Fin 1) Q)
  obtain ⟨-, -, -, -, -, -, -, -, e0, e1, -⟩ := block_indices t
  refine congrArg (V m c main_v5) (funext fun a => Fin.ext ?_)
  match a with
  | ⟨0, _⟩ => show win0_4.index t (0 : Fin 2) * 1 + 1 * 0 = 0; rw [e0]
  | ⟨1, _⟩ => show win0_4.index t (1 : Fin 2) * 1024 + 1 * q.val = Q.val; rw [e1, hQ]; omega

/-! ## What a step writes back is a block of one array-wide function -/

/-- The result as a function of the staged arrays. -/
abbrev whole (c : Dev nD) : FVec Ideal S16384x4096 .f32 :=
  dense2 (V m c main_v1) (V m c main_v2) (V m c main_v3) (V m c main_v4) (V m c main_v5)

/-- Step `t` writes back block (i(t), j(t)) of `whole`. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5]
  unfold out0_5
  rw [View.canon_unit_zero offsets_zero]
  simp only [View.ld_unit_zero (S := S256x4096) offsets_zero, View.ld_unit_zero (S := S1024x4096) offsets_zero,
    View.ld_unit_zero (S := S16x4096) offsets_zero, View.ld_unit_zero (S := S1024x16) offsets_zero,
    View.ld_unit_zero (S := S1x1024) offsets_zero]
  funext j
  obtain ⟨p, q, rfl⟩ : ∃ (p : Fin 256) (q : Fin 1024), j = ix2 p q := ⟨j 0, j 1, eq_ix2 j⟩
  show k0_pay1 (F := Ideal) (iblk m c 0 t) (iblk m c 1 t) (iblk m c 2 t) (iblk m c 3 t) (iblk m c 4 t) (ix2 p q)
    = rowcol (V m c main_v1) (V m c main_v2) (V m c main_v3) (V m c main_v4) (V m c main_v5)
        (((cfg0.win 5).blk t).view.emb (ix2 p q) 0) (((cfg0.win 5).blk t).view.emb (ix2 p q) 1)
  have hP : (((cfg0.win 5).blk t).view.emb (ix2 p q) 0).val = win0_5.index t (0 : Fin 2) * 256 + p.val := by
    show win0_5.index t (0 : Fin 2) * 256 + 1 * p.val = _; omega
  have hQ : (((cfg0.win 5).blk t).view.emb (ix2 p q) 1).val = win0_5.index t (1 : Fin 2) * 1024 + q.val := by
    show win0_5.index t (1 : Fin 2) * 1024 + 1 * q.val = _; omega
  refine (stored_apply _ _ _ _ _ p q).trans ?_
  unfold rowcol
  simp only [rows_block m c t p _ hP, weights_block m c t q _ hQ, down_block m c t, up_block m c t q _ hQ,
    bias_block m c t q _ hQ]

/-! ## The blocks cover the result -/

/-- An entry is in step `t`'s block iff its row is in row block `i(t)` and its column in column block `j(t)`. -/
theorem mem_block (t : Fin cfg0.N) (i : S16384x4096.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v6).slice (win0_5.rect t)).set ↔ _
  rw [View.set_slice_whole, Rect.mem_set_unit]
  exact Iff.rfl

/-- Every entry (P, Q) is in the block of the step with row block P / 256 and column block Q / 1024. -/
theorem covered (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  obtain ⟨t, ht⟩ : ∃ t : Fin cfg0.N, win0_5.index t = ![(i 0).val / 256, (i 1).val / 1024] :=
    ⟨_, point_of ⟨(i 0).val / 256, by omega⟩ ⟨(i 1).val / 1024, by omega⟩⟩
  have q0 : win0_5.index t (0 : Fin 2) = (i 0).val / 256 := congrFun ht 0
  have q1 : win0_5.index t (1 : Fin 2) = (i 1).val / 1024 := congrFun ht 1
  refine ⟨t, flush0_5 t, ?_⟩
  rw [mem_block]
  intro a
  match a with
  | ⟨0, _⟩ =>
    show win0_5.index t (0 : Fin 2) * 256 ≤ (i 0).val ∧ (i 0).val < win0_5.index t (0 : Fin 2) * 256 + 256
    rw [q0]; omega
  | ⟨1, _⟩ =>
    show win0_5.index t (1 : Fin 2) * 1024 ≤ (i 1).val ∧ (i 1).val < win0_5.index t (1 : Fin 2) * 1024 + 1024
    rw [q1]; omega

/-- The result array after the grid has run is `whole`. -/
theorem final (c : Dev nD) : (dats m 0 c).arrAt 5 cfg0.N = whole m c :=
  (dats m 0 c).arrAt_eq_of_cover 5 (whole m c) (fun t _ => flushed_eq m c t) covered

end Cert.KernelIdeal.Blocks

end
-- ==== Proof.Staged.lean ====
/-
  The arrays the grid reads, as functions of the arguments.

  Before the grid runs, `x` is flattened from (batch, position, feature) to (row, feature) with row = batch · 4096 +
  position, and narrowed; `W`, `A`, `B` are narrowed; the bias vector becomes a one-row matrix. On the extended reals
  narrowing is the identity, and flattening keeps the row-major position. So the five staged arrays read, entry by
  entry, the arguments' entries.
-/
import proofs.«170054_j1108101562874_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Staged

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## The staged arrays as terms of the arguments -/

/-- The rows: `x` flattened, then narrowed. -/
theorem rows_eq (c : Dev nD) : (V m c main_v1 : FVec Ideal S16384x4096 .bf16)
    = truncf (F := Ideal) .bf16 (shapeCast S16384x4096 (m ((c : Thread nD τ).loc main_arg0)) shapeCasts_S4x4096x4096_S16384x4096) bitsLt_bf16_f32 := by
  show StableHlo.after hostOps0 (fun b => m (c, b)) (Proc.devRef .tc main_v1) = _
  after_results
  rfl

/-- The weights, narrowed: the same extended reals. -/
theorem weights_eq (c : Dev nD) : (V m c main_v2 : FVec Ideal S4096x4096 .f32) = m ((c : Thread nD τ).loc main_arg1) := by
  show StableHlo.after hostOps0 (fun b => m (c, b)) (Proc.devRef .tc main_v2) = _
  after_results
  rfl

/-- The first thin factor, narrowed. -/
theorem down_eq (c : Dev nD) : (V m c main_v3 : FVec Ideal S16x4096 .f32) = m ((c : Thread nD τ).loc main_arg3) := by
  show StableHlo.after hostOps0 (fun b => m (c, b)) (Proc.devRef .tc main_v3) = _
  after_results
  rfl

/-- The second thin factor, narrowed. -/
theorem up_eq (c : Dev nD) : (V m c main_v4 : FVec Ideal S4096x16 .f32) = m ((c : Thread nD τ).loc main_arg4) := by
  show StableHlo.after hostOps0 (fun b => m (c, b)) (Proc.devRef .tc main_v4) = _
  after_results
  rfl

/-- The bias as a one-row matrix. -/
theorem bias_eq (c : Dev nD) : (V m c main_v5 : FVec Ideal S1x4096 .f32)
    = shapeCast S1x4096 (m ((c : Thread nD τ).loc main_arg2)) shapeCasts_S4096_S1x4096 := by
  show StableHlo.after hostOps0 (fun b => m (c, b)) (Proc.devRef .tc main_v5) = _
  after_results
  rfl

/-! ## Read at an entry -/

/-- Row `p = b · 4096 + s` of the staged rows, at feature `k`, is `x[b, s, k]`. -/
theorem rows_apply (c : Dev nD) (p : Fin 16384) (b : Fin 4) (s : Fin 4096) (k : Fin 4096) (hp : p.val = b.val * 4096 + s.val) :
    (V m c main_v1 : FVec Ideal S16384x4096 .bf16) (ix2 p k) = m ((c : Thread nD τ).loc main_arg0) (ix3 b s k) := by
  rw [rows_eq]
  show shapeCast S16384x4096 (m ((c : Thread nD τ).loc main_arg0)) shapeCasts_S4x4096x4096_S16384x4096 (ix2 p k) = _
  refine shapeCast_apply _ _ (ix2 p k) (ix3 b s k) ?_
  rw [Shape.rowMajor_val_three, Shape.rowMajor_val_two]
  show (b.val * 4096 + s.val) * 4096 + k.val = p.val * 4096 + k.val
  rw [hp]

/-- Entry (0, o) of the one-row bias is the bias at `o`. -/
theorem bias_apply (c : Dev nD) (o : Fin 4096) :
    (V m c main_v5 : FVec Ideal S1x4096 .f32) (ix2 (0 : Fin 1) o) = m ((c : Thread nD τ).loc main_arg2) (ix1 o) := by
  rw [bias_eq]
  refine shapeCast_apply _ _ (ix2 (0 : Fin 1) o) (ix1 o) ?_
  rw [Shape.rowMajor_val_one, Shape.rowMajor_val_two]
  show o.val = 0 * 4096 + o.val
  omega

end Cert.KernelIdeal.Staged

end
-- ==== Proof.Layer.lean ====
/-
  The blocked program's result, as a function of its arguments.

  After the grid the result array holds the layer over flattened rows (`Blocks.final`), of the staged arrays; the
  staged arrays read the arguments (`Staged`); and the last line of the program regroups the 16384 rows as
  4 × 4096 (batch, position) pairs, keeping the row-major position: entry (b, s, o) of the output is entry
  (b · 4096 + s, o) of the grid's result. Hence the output is the layer over (batch, position) rows of the arguments,
  and the run of the whole program ends with that array in the result buffer and the arguments untouched.
-/
import proofs.«170054_j1108101562874_2_alg».proof.Proof.Blocks
import proofs.«170054_j1108101562874_2_alg».proof.Proof.Staged
import Idealize.ShloMosaic.Lib.StableHlo.Run

noncomputable section

open scoped BigOperators

namespace Cert.KernelIdeal.Layer

open Cert.KernelIdeal Cert.KernelIdeal.Gen Cert.KernelIdeal.Blocks Cert.KernelIdeal.Staged
open Idealize.ShloMosaic Idealize.ShloMosaic.TcCoe Idealize.SL.Sem Idealize.ShloMosaic.ValueIdx Cert.Lora
open Idealize.ShloMosaic.StableHlo

variable (m : (ℓ : Loc nD τ sig) → Buf (Elt Ideal) ℓ) (ρ : Dev nD → PrngReg)

/-- The layer over (batch, position) rows of the program's five arguments. -/
abbrev out (c : Dev nD) : FVec Ideal S4x4096x4096 .f32 :=
  dense3 (m ((c : Thread nD τ).loc main_arg0)) (m ((c : Thread nD τ).loc main_arg1)) (m ((c : Thread nD τ).loc main_arg2))
    (m ((c : Thread nD τ).loc main_arg3)) (m ((c : Thread nD τ).loc main_arg4))

/-- Entry (b · 4096 + s, o) of the grid's result is entry (b, s, o) of the layer of the arguments. -/
theorem whole_apply (c : Dev nD) (b : Fin 4) (s : Fin 4096) (o : Fin 4096) (p : Fin 16384) (hp : p.val = b.val * 4096 + s.val) :
    whole m c (ix2 p o) = entry (m ((c : Thread nD τ).loc main_arg0)) (m ((c : Thread nD τ).loc main_arg1))
      (m ((c : Thread nD τ).loc main_arg2)) (m ((c : Thread nD τ).loc main_arg3)) (m ((c : Thread nD τ).loc main_arg4)) b s o := by
  show rowcol (V m c main_v1) (V m c main_v2) (V m c main_v3) (V m c main_v4) (V m c main_v5) p o = _
  rw [weights_eq m c, down_eq m c, up_eq m c]
  exact rowcol_eq_entry _ _ _ _ _ _ _ p b s o (fun k => rows_apply m c p b s k hp) (bias_apply m c o)

/-- The program's result buffer after the last line: the grid's result regrouped. -/
theorem result_eq (c : Dev nD) :
    Pipeline.afterTail₀ cfgs (dats m) 0 (V0 m) [hostOps1] c main_v7 = out m c := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = whole m c :=
    (Pipeline.withArrays_arr spec0 launch0.win.arr_inj c _ _ 5).trans (final m c)
  funext i
  obtain ⟨b, s, o, rfl⟩ : ∃ (b : Fin 4) (s : Fin 4096) (o : Fin 4096), i = ix3 b s o := ⟨i 0, i 1, i 2, eq_ix3 i⟩
  have hlt : b.val * 4096 + s.val < 16384 := by have := b.isLt; have := s.isLt; omega
  show shapeCast S4x4096x4096 (Pipeline.withArrays (cfgs 0).spec c (V0 m c) (fun w => (dats m 0 c).arrAt w (cfgs 0).N)
      (Proc.devRef .tc main_v6)) shapeCasts_S16384x4096_S4x4096x4096 (ix3 b s o) = _
  refine (shapeCast_apply _ _ (ix3 b s o) (ix2 (⟨b.val * 4096 + s.val, hlt⟩ : Fin 16384) o) ?_).trans ?_
  · rw [Shape.rowMajor_val_three, Shape.rowMajor_val_two]
    rfl
  · exact (congrFun e _).trans (whole_apply m c b s o ⟨b.val * 4096 + s.val, hlt⟩ rfl)

/-- Every weakly fair run of the blocked program ends with the layer of the arguments in the result buffer and the
    arguments as they were. -/
theorem run : θ_run defs (onTc (τ := τ) (main (F := Ideal))) ⟨m, fun _ => 0, ρ⟩ fun r => ∀ c : Dev nD,
      r.2.mem ((c.tc : Thread nD τ).loc main_v7) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Layer

end
-- ==== Proof.RefValue.lean ====
/-
  The einsum form read entry by entry.

  The reference computes, over rows indexed by (batch, position):  the contraction of `x` with `W` over the
  feature axis, plus the bias broadcast along the first two axes; the contraction of `x` with `A`, then of
  that with `B` over the rank axis; the second scaled by the constant and added to the first. Each stage
  at an index is its operands at indices whose coordinates compute, and the two nested contractions are
  sums over the feature axis and the rank axis. Read at (b, s, o) the result is `Cert.Lora.entry`.
-/
import proofs.«170054_j1108101562874_2_alg».proof.Proof.Gen.ReferenceIdeal.Read
import proofs.«170054_j1108101562874_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Lora

/-! ## Where each stage reads its operands -/

/-- The first contraction reads row (b, s) of `x` along the feature axis … -/
theorem x_of_base (b : Fin 4) (s : Fin 4096) (o : Fin 4096) (k : Fin 4096) :
    lidx_main_v0 (ix3 b s o) k = ix3 b s k :=
  funext fun a => by match a with | ⟨0, _⟩ => rfl | ⟨1, _⟩ => rfl | ⟨2, _⟩ => rfl
/-- … against row `o` of `W`. -/
theorem w_of_base (b : Fin 4) (s : Fin 4096) (o : Fin 4096) (k : Fin 4096) :
    ridx_main_v0 (ix3 b s o) k = ix2 o k :=
  funext fun a => by match a with | ⟨0, _⟩ => rfl | ⟨1, _⟩ => rfl
/-- The broadcast bias at (b, s, o) is the bias at `o`. -/
theorem bias_of (b : Fin 4) (s : Fin 4096) (o : Fin 4096) :
    idx_main_v1 (idx_main_v2 (ix3 b s o)) = ix1 o :=
  funext fun a => by match a with | ⟨0, _⟩ => rfl
/-- The rank contraction reads entry (b, s, r) of the thin product … -/
theorem xa_of_delta (b : Fin 4) (s : Fin 4096) (o : Fin 4096) (r : Fin 16) :
    lidx_main_v5 (ix3 b s o) r = ix3 b s r :=
  funext fun a => by match a with | ⟨0, _⟩ => rfl | ⟨1, _⟩ => rfl | ⟨2, _⟩ => rfl
/-- … against entry (o, r) of `B`. -/
theorem b_of_delta (b : Fin 4) (s : Fin 4096) (o : Fin 4096) (r : Fin 16) :
    ridx_main_v5 (ix3 b s o) r = ix2 o r :=
  funext fun a => by match a with | ⟨0, _⟩ => rfl | ⟨1, _⟩ => rfl
/-- The thin product at (b, s, r) reads row (b, s) of `x` … -/
theorem x_of_thin (b : Fin 4) (s : Fin 4096) (r : Fin 16) (k : Fin 4096) :
    lidx_main_v4 (ix3 b s r) k = ix3 b s k :=
  funext fun a => by match a with | ⟨0, _⟩ => rfl | ⟨1, _⟩ => rfl | ⟨2, _⟩ => rfl
/-- … against row `r` of `A`. -/
theorem a_of_thin (b : Fin 4) (s : Fin 4096) (r : Fin 16) (k : Fin 4096) :
    ridx_main_v4 (ix3 b s r) k = ix2 r k :=
  funext fun a => by match a with | ⟨0, _⟩ => rfl | ⟨1, _⟩ => rfl

/-! ## The result, entry by entry -/

/-- The reference's result at (b, s, o) is the layer's entry there. -/
theorem result_entry (x0 : FVec Ideal S4x4096x4096 .f32) (x1 : FVec Ideal S4096x4096 .f32) (x2 : FVec Ideal S4096 .f32)
    (x3 : FVec Ideal S16x4096 .f32) (x4 : FVec Ideal S4096x16 .f32) (b : Fin 4) (s : Fin 4096) (o : Fin 4096) :
    val_main_v8 (F := Ideal) x0 x1 x2 x3 x4 (ix3 b s o) = entry x0 x1 x2 x3 x4 b s o := by
  rw [val_main_v8_apply, val_main_v3_apply, val_main_v7_apply, val_main_v0_apply, val_main_v2_apply,
    val_main_v1_apply, val_main_v6_apply, val_main_cst_apply, val_main_v5_apply]
  simp only [val_main_v4_apply, x_of_base, w_of_base, bias_of, xa_of_delta, b_of_delta, x_of_thin, a_of_thin,
    Ideal.addf_def, Ideal.mulf_def, Ideal.ofBits_def]
  rfl

/-- The reference's result array is the layer over (batch, position) rows. -/
theorem result_eq (x0 : FVec Ideal S4x4096x4096 .f32) (x1 : FVec Ideal S4096x4096 .f32) (x2 : FVec Ideal S4096 .f32)
    (x3 : FVec Ideal S16x4096 .f32) (x4 : FVec Ideal S4096x16 .f32) :
    val_main_v8 (F := Ideal) x0 x1 x2 x3 x4 = dense3 x0 x1 x2 x3 x4 := by
  funext i
  obtain ⟨b, s, o, rfl⟩ : ∃ (b : Fin 4) (s : Fin 4096) (o : Fin 4096), i = ix3 b s o := ⟨i 0, i 1, i 2, eq_ix3 i⟩
  exact result_entry x0 x1 x2 x3 x4 b s o

end Cert.ReferenceIdeal.RefValue

end
-- ==== Proof.lean ====
/-
  A dense layer with a low-rank correction, computed in blocks, against its einsum form.

  Both programs compute, for a batch of rows `x` (4 × 4096 rows of 4096 features), weights `W`, bias `β`, thin
  factors `A` (16 × 4096) and `B` (4096 × 16) and the constant σ = 2,

      out[b,s,o] = (Σ_k x[b,s,k] · W[o,k] + β[o]) + σ · Σ_r (Σ_k x[b,s,k] · A[r,k]) · B[o,r].

  The blocked program flattens the rows, narrows its matrix operands (the identity on the extended reals), runs a
  4 × 64 grid whose step (j, i) forms the 256 × 1024 block (i, j) of the result from 256 rows of `x`, 1024 rows of
  `W` and of `B`, all of `A` and 1024 bias entries, and regroups the rows. The einsum form contracts `x` with `W`,
  adds the broadcast bias, contracts `x` with `A` and the result with `B`, scales and adds. Entry by entry the two are
  the same expression — the same sums over the same index sets, the same constant word — so no law of the extended
  reals beyond reading each operation at an index is used, and the finiteness of the inputs is never opened.

  The modules: `Spec` states the function; `Payload` reads one grid step's stored block at an entry;
  `Staged` reads the arrays the grid is given; `Blocks` goes from the stored blocks to the whole result array;
  `Layer` is the blocked program's run with its result named; `RefValue` reads the einsum form at an entry.
  The three programs' runs (termination, no fault, arguments unchanged) are the imported frame and run theorems.
-/
import proofs.«170054_j1108101562874_2_alg».proof.Defs
import proofs.«170054_j1108101562874_2_alg».proof.Proof.Gen.Kernel
import proofs.«170054_j1108101562874_2_alg».proof.Proof.Gen.Kernel.Frame
import proofs.«170054_j1108101562874_2_alg».proof.Proof.Gen.KernelIdeal
import proofs.«170054_j1108101562874_2_alg».proof.Proof.Gen.KernelIdeal.Frame
import proofs.«170054_j1108101562874_2_alg».proof.Proof.Gen.ReferenceIdeal
import proofs.«170054_j1108101562874_2_alg».proof.Proof.Gen.ReferenceIdeal.Run
import proofs.«170054_j1108101562874_2_alg».proof.Proof.Gen.ReferenceIdeal.Read
import proofs.«170054_j1108101562874_2_alg».proof.Proof.Gen.Pre_finite_inputs
import proofs.«170054_j1108101562874_2_alg».proof.Proof.Layer
import proofs.«170054_j1108101562874_2_alg».proof.Proof.RefValue

noncomputable section

namespace Cert.Proof

open Idealize.ShloMosaic Idealize.SL.Sem

/-- The word-level program runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the blocked program read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the einsum form: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From arguments that agree, the blocked program ends with the layer of its arguments in its result buffer
    (`Layer.run`), and the einsum form with its composed term, which entry by entry is the same layer
    (`RefValue.result_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Layer.out m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v8_eq _ _ _ _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
